-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S128x64 : Shape := ⟨2, ![128, 64]⟩
abbrev S128 : Shape := ⟨1, ![128]⟩
abbrev S128x128 : Shape := ⟨2, ![128, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S100000x64 .f32) (main_arg1 : IVec S2x1200000 32) (main_arg2 : FVec F S128x64 .f32) (main_arg3 : FVec F S128 .f32) (main_arg4 : FVec F S128x64 .f32) (main_arg5 : FVec F S128x128 .f32) (main_arg6 : FVec F S128 .f32) (main_arg7 : FVec F S128x128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x64 : Shape := ⟨2, ![100000, 64]⟩
abbrev S2x1200000 : Shape := ⟨2, ![2, 1200000]⟩
abbrev S128x64 : Shape := ⟨2, ![128, 64]⟩
abbrev S128 : Shape := ⟨1, ![128]⟩
abbrev S128x128 : Shape := ⟨2, ![128, 128]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S64x128 : Shape := ⟨2, ![64, 128]⟩
abbrev S1200000x128 : Shape := ⟨2, ![1200000, 128]⟩

abbrev nBuf : Space → Nat
  | .hbm => 42
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S_, .i32⟩
  | .hbm, ⟨13, _⟩ => ⟨S1200000, .i32⟩
  | .hbm, ⟨14, _⟩ => ⟨S1200000, .i1⟩
  | .hbm, ⟨15, _⟩ => ⟨S_, .i32⟩
  | .hbm, ⟨16, _⟩ => ⟨S1200000, .i32⟩
  | .hbm, ⟨17, _⟩ => ⟨S1200000, .i32⟩
  | .hbm, ⟨18, _⟩ => ⟨S1200000, .i32⟩
  | .hbm, ⟨19, _⟩ => ⟨S1200000x1, .i32⟩
  | .hbm, ⟨20, _⟩ => ⟨S1200000x64, .f32⟩
  | .hbm, ⟨21, _⟩ => ⟨S_, .f32⟩
  | .hbm, ⟨22, _⟩ => ⟨S100000x64, .f32⟩
  | .hbm, ⟨23, _⟩ => ⟨S1200000x1, .i32⟩
  | .hbm, ⟨24, _⟩ => ⟨S100000x64, .f32⟩
  | .hbm, ⟨25, _⟩ => ⟨S1x128, .f32⟩
  | .hbm, ⟨26, _⟩ => ⟨S100000x128, .f32⟩
  | .hbm, ⟨27, _⟩ => ⟨S_, .i32⟩
  | .hbm, ⟨28, _⟩ => ⟨S1200000, .i32⟩
  | .hbm, ⟨29, _⟩ => ⟨S1200000, .i1⟩
  | .hbm, ⟨30, _⟩ => ⟨S_, .i32⟩
  | .hbm, ⟨31, _⟩ => ⟨S1200000, .i32⟩
  | .hbm, ⟨32, _⟩ => ⟨S1200000, .i32⟩
  | .hbm, ⟨33, _⟩ => ⟨S1200000, .i32⟩
  | .hbm, ⟨34, _⟩ => ⟨S1200000x1, .i32⟩
  | .hbm, ⟨35, _⟩ => ⟨S1200000x128, .f32⟩
  | .hbm, ⟨36, _⟩ => ⟨S_, .f32⟩
  | .hbm, ⟨37, _⟩ => ⟨S100000x128, .f32⟩
  | .hbm, ⟨38, _⟩ => ⟨S1200000x1, .i32⟩
  | .hbm, ⟨39, _⟩ => ⟨S100000x128, .f32⟩
  | .hbm, ⟨40, _⟩ => ⟨S1x128, .f32⟩
  | .hbm, ⟨41, _⟩ => ⟨S100000x128, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S128x64, .f32⟩
  | .local _ .vmem, ⟨5, _⟩ => ⟨S1x128, .f32⟩
  | .local _ .vmem, ⟨6, _⟩ => ⟨S128x64, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S128x64_S128x64_0_0 : ∀ a, (![0, 0] : Fin 2 → Nat) a + S128x64.size a ≤ S128x64.size a
  h_S128x64 : 0 < S128x64.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  transposes_S128x64_p1_0_S64x128 : S128x64.Transposes [1, 0] S64x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x128_S5000x128_1_0_0_1_n_n_wf : DotDims.WF S5000x64 S64x128 S5000x128 [1] [0] [0] [1] [] []
  gather_S100000x128_S1200000x1_S1200000x128_1_0_n_n_0_1_1128_wf : GatherDims.WF S100000x128 S1200000x1 S1200000x128 [1] [0] [] [0] [] 1 ![1, 128]
  scatter_S100000x128_S1200000x1_S1200000x128_1_0_0_1_wf : ScatterDims.WF S100000x128 S1200000x1 S1200000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1200000x1_S1200000x128_1_0_n_n_0_1_1128 : GatherDims S100000x128 S1200000x1 S1200000x128 where
  offsetDims := [1]
  collapsedSliceDims := [0]
  operandBatchingDims := []
  startIndicesBatchingDims := []
  startIndexMap := [0]
  indexVectorDim := 1
  sliceSizes := ![1, 128]
  wf := gather_S100000x128_S1200000x1_S1200000x128_1_0_n_n_0_1_1128_wf
def scatter_S100000x128_S1200000x1_S1200000x128_1_0_0_1 : ScatterDims S100000x128 S1200000x1 S1200000x128 where
  updateWindowDims := [1]
  insertedWindowDims := [0]
  scatterDimsToOperandDims := [0]
  indexVectorDim := 1
  wf := scatter_S100000x128_S1200000x1_S1200000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S128x64 : Shape := ⟨2, ![128, 64]⟩
abbrev S128 : Shape := ⟨1, ![128]⟩
abbrev S128x128 : Shape := ⟨2, ![128, 128]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S64x128 : Shape := ⟨2, ![64, 128]⟩
abbrev S100000x128 : Shape := ⟨2, ![100000, 128]⟩
abbrev S1x128 : Shape := ⟨2, ![1, 128]⟩
abbrev S1200000x128 : Shape := ⟨2, ![1200000, 128]⟩

abbrev nBuf : Space → Nat
  | .hbm => 57
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S_, .i32⟩
  | .hbm, ⟨13, _⟩ => ⟨S1200000, .i32⟩
  | .hbm, ⟨14, _⟩ => ⟨S1200000, .i1⟩
  | .hbm, ⟨15, _⟩ => ⟨S_, .i32⟩
  | .hbm, ⟨16, _⟩ => ⟨S1200000, .i32⟩
  | .hbm, ⟨17, _⟩ => ⟨S1200000, .i32⟩
  | .hbm, ⟨18, _⟩ => ⟨S1200000, .i32⟩
  | .hbm, ⟨19, _⟩ => ⟨S1200000x1, .i32⟩
  | .hbm, ⟨20, _⟩ => ⟨S1200000x64, .f32⟩
  | .hbm, ⟨21, _⟩ => ⟨S_, .f32⟩
  | .hbm, ⟨22, _⟩ => ⟨S100000x64, .f32⟩
  | .hbm, ⟨23, _⟩ => ⟨S1200000x1, .i32⟩
  | .hbm, ⟨24, _⟩ => ⟨S100000x64, .f32⟩
  | .hbm, ⟨25, _⟩ => ⟨S64x128, .f32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S64x128, .f32⟩
  | .hbm, ⟨31, _⟩ => ⟨S100000x128, .f32⟩
  | .hbm, ⟨32, _⟩ => ⟨S100000x128, .f32⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S_, .i32⟩
  | .hbm, ⟨37, _⟩ => ⟨S1200000, .i32⟩
  | .hbm, ⟨38, _⟩ => ⟨S1200000, .i1⟩
  | .hbm, ⟨39, _⟩ => ⟨S_, .i32⟩
  | .hbm, ⟨40, _⟩ => ⟨S1200000, .i32⟩
  | .hbm, ⟨41, _⟩ => ⟨S1200000, .i32⟩
  | .hbm, ⟨42, _⟩ => ⟨S1200000, .i32⟩
  | .hbm, ⟨43, _⟩ => ⟨S1200000x1, .i32⟩
  | .hbm, ⟨44, _⟩ => ⟨S1200000x128, .f32⟩
  | .hbm, ⟨45, _⟩ => ⟨S_, .f32⟩
  | .hbm, ⟨46, _⟩ => ⟨S100000x128, .f32⟩
  | .hbm, ⟨47, _⟩ => ⟨S1200000x1, .i32⟩
  | .hbm, ⟨48, _⟩ => ⟨S100000x128, .f32⟩
  | .hbm, ⟨49, _⟩ => ⟨S128x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S128x128, .f32⟩
  | .hbm, ⟨55, _⟩ => ⟨S100000x128, .f32⟩
  | .hbm, ⟨56, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_c_1 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S128x128_S128x128_1_0 : S128x128.Transposes [1, 0] S128x128
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x128_S100000x128_1_0_0_1_n_n_wf : DotDims.WF S100000x64 S64x128 S100000x128 [1] [0] [0] [1] [] []
  gather_S100000x128_S1200000x1_S1200000x128_1_0_n_n_0_1_1128_wf : GatherDims.WF S100000x128 S1200000x1 S1200000x128 [1] [0] [] [0] [] 1 ![1, 128]
  scatter_S100000x128_S1200000x1_S1200000x128_1_0_0_1_wf : ScatterDims.WF S100000x128 S1200000x1 S1200000x128 [1] [0] [0] 1
  dot_S100000x128_S128x128_S100000x128_1_0_0_1_n_n_wf : DotDims.WF S100000x128 S128x128 S100000x128 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1200000x1_S1200000x128_1_0_n_n_0_1_1128 : GatherDims S100000x128 S1200000x1 S1200000x128 where
  offsetDims := [1]
  collapsedSliceDims := [0]
  operandBatchingDims := []
  startIndicesBatchingDims := []
  startIndexMap := [0]
  indexVectorDim := 1
  sliceSizes := ![1, 128]
  wf := gather_S100000x128_S1200000x1_S1200000x128_1_0_n_n_0_1_1128_wf
def scatter_S100000x128_S1200000x1_S1200000x128_1_0_0_1 : ScatterDims S100000x128 S1200000x1 S1200000x128 where
  updateWindowDims := [1]
  insertedWindowDims := [0]
  scatterDimsToOperandDims := [0]
  indexVectorDim := 1
  wf := scatter_S100000x128_S1200000x1_S1200000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run, with its RESULT named.

  The program is four segments: the host operations that form the first neighbour sums, the first launch, the host
  operations that form the second neighbour sums from the hidden array, the second launch. Every weakly fair
  execution ends with each unscoped buffer at the last segment boundary's contents; read at the result buffer this
  names the result, and read at the arguments it says they are unchanged.
-/
import proofs.«142811_j80075370266804_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: the staging cells of both launches and their tokens. -/
abbrev launchElt : UR sig nD τ := initOf (Pipeline.cells cfgs cellOf_inj) (Pipeline.launchToks cfgs cellOf_inj)

/-- At launch the element is handed over as it is; no core needs a ghost resource of its own. -/
theorem launch_deal : (ownU launchElt : sProp (𝕄))
    ⊢ |={Set.univ}=> iprop(BI.own (emb₁ launchElt) ∗ bigSep Finset.univ (fun _ : Dev nD => (BI.emp : sProp (𝕄)))) := by
  iintro Hu
  imodintro
  isplitl [Hu]
  · iapply (show (ownU launchElt : sProp (𝕄)) ⊢ BI.own (emb₁ launchElt) from .rfl)
    iexact Hu
  · iapply (show (BI.emp : sProp (𝕄)) ⊢ bigSep Finset.univ (fun _ : Dev nD => (BI.emp : sProp (𝕄))) from by rw [BI.bigSep_emp_const])
    iempintro

/-- What a core holds before the first segment: every unscoped buffer at the launch memory, its generator register at
    some state, and nothing owed. -/
abbrev first (c : Dev nD) : sProp (𝕄) :=
  iprop(StableHlo.held (c : Thread nD τ) (Pipeline.ucRefs τ sig) (W0 m ρ c) ∗ R c)

/-- The last holdings, read against a final state: its memory has every unscoped buffer at the contents the second
    launch leaves. -/
theorem read_last (c : Dev nD) (s' : Phys nD τ sig (Elt F)) :
    iprop(Tₙ m ρ c ∗ SI s') ⊢ |={Set.univ}=> iprop(⌜∀ b ∈ Pipeline.ucRefs τ sig, s'.mem.mem (((c : Thread nD τ)).1, b) = W4 m ρ c b⌝ ∗ SI s') := by
  iintro ⟨⟨Hbufs, -⟩, HSI⟩
  unfold StableHlo.held
  imodintro
  iapply (pointsTo_read_all (Pipeline.ucRefs τ sig) (fun b => (((c : Thread nD τ)).1, b)) (W4 m ρ c) s')
  isplitl [Hbufs] <;> iassumption

set_option backward.isDefEq.respectTransparency.types false in
/-- Every weakly fair execution terminates, nothing faulting, with the result buffer at the contents the second launch
    leaves (`Gen.W4` at the result) and the eight arguments as launched. -/
theorem run_result : θ_run defs (onTc (τ := τ) (main (F := F))) ⟨m, fun _ => 0, ρ⟩ (fun r => ∀ c : Dev nD,
      r.2.mem ((c.tc : Thread nD τ).loc main_v27) = W4 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := launchElt) (hu₀ := launch_deal)
    (T₀ := first m ρ) (Tₙ := Tₙ m ρ)
    (hch := ⟨fun _ => .rfl, fun _ => .rfl, fun _ => .rfl, fun _ => .rfl, fun _ => .rfl⟩)
    (hinit := by
      -- every core's first holdings are made from what the launch deals it: the unscoped buffers are the launch
      -- memory's, the generator register is at its launch state, and nothing is owed
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]
      · iexact Hbufs
      isplitl [Hreg]
      · iexists _; iexact Hreg
      · iexists ∅; iexact Howes)
    (QY := fun c s => ∀ b ∈ Pipeline.ucRefs τ sig, s.mem (((c : Thread nD τ)).1, b) = W4 m ρ c b)
    (hfin := read_last m ρ)
    (hQ := fun s h c =>
      ⟨h c _ (mem_uc main_v27 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.LayerSpec.lean ====
/-
  The linear stage of a graph-convolution layer, as one function of whole arrays over the extended reals.

  For node features `x` and summed neighbour features `agg` (one row per node, `K` columns), weights `wrel`, `wroot`
  (one row per output feature) and a bias `b`, the stage's entry at node `r`, feature `q` is
      (∑ₖ agg[r,k]·wrel[q,k] + b[q]) + ∑ₖ x[r,k]·wroot[q,k].
  The first layer clamps it below at zero (the zero written as the float word both programs spell).
-/
import Idealize.ShloMosaic.PureOps.Ideal
import Idealize.ShloMosaic.Lib.ValueIdx

noncomputable section

namespace Cert.GraphConv

open Idealize.ShloMosaic Idealize.ShloMosaic.ValueIdx

/-- One entry of the linear stage: row `r` of the node arrays against row `q` of the weights. -/
def lin {N K : ℕ} (x agg : (⟨2, ![N, K]⟩ : Shape).Idx → EReal) (wrel wroot : (⟨2, ![128, K]⟩ : Shape).Idx → EReal)
    (b : (⟨1, ![128]⟩ : Shape).Idx → EReal) (r : Fin N) (q : Fin 128) : EReal :=
  (∑ k : Fin K, agg (ix2 r k) * wrel (ix2 q k) + b (ix1 q)) + ∑ k : Fin K, x (ix2 r k) * wroot (ix2 q k)

/-- The stage over all nodes, without a clamp (the output layer). -/
def layer {N K : ℕ} (x agg : (⟨2, ![N, K]⟩ : Shape).Idx → EReal) (wrel wroot : (⟨2, ![128, K]⟩ : Shape).Idx → EReal)
    (b : (⟨1, ![128]⟩ : Shape).Idx → EReal) : (⟨2, ![N, 128]⟩ : Shape).Idx → EReal :=
  fun i => lin x agg wrel wroot b (i 0) (i 1)

/-- The stage over all nodes, clamped below at zero (the hidden layer). -/
def layerRelu {N K : ℕ} (x agg : (⟨2, ![N, K]⟩ : Shape).Idx → EReal) (wrel wroot : (⟨2, ![128, K]⟩ : Shape).Idx → EReal)
    (b : (⟨1, ![128]⟩ : Shape).Idx → EReal) : (⟨2, ![N, 128]⟩ : Shape).Idx → EReal :=
  fun i => max (lin x agg wrel wroot b (i 0) (i 1)) (Ideal.ofBits .f32 0x00000000#32)

end Cert.GraphConv

end
-- ==== Proof.RefLayers.lean ====
/-
  The reference, layer by layer: its hidden array and its result are the linear stage of LayerSpec applied to the
  arrays it is given and to the neighbour sums it forms from them.
-/
import proofs.«142811_j80075370266804_1_alg».proof.Proof.Gen.ReferenceIdeal.Read
import proofs.«142811_j80075370266804_1_alg».proof.Proof.LayerSpec

noncomputable section

namespace Cert.ReferenceIdeal.Layers

open Cert.ReferenceIdeal Cert.ReferenceIdeal.Gen Cert.ReferenceIdeal.Read Idealize.ShloMosaic Idealize.ShloMosaic.TcCoe Idealize.ShloMosaic.ValueIdx
open Cert.GraphConv

/-- The hidden array: the clamped linear stage of the node features `x0` and their neighbour sums
    (`val_main_v13`: the scatter-add of the gathered rows), with the first layer's weights and bias. -/
theorem hidden_eq (x0 : Vec Ideal S100000x64 .f32) (x1 : (⟨S2x1200000, .i32⟩ : BufTy).Contents (Elt Ideal)) (x2 : Vec Ideal S128x64 .f32)
    (x3 : Vec Ideal S128 .f32) (x4 : Vec Ideal S128x64 .f32) :
    val_main_v22 (F := Ideal) x0 x1 x2 x3 x4 = layerRelu x0 (val_main_v13 (F := Ideal) x0 x1) x2 x4 x3 := by
  funext i
  rw [val_main_v22_apply, val_main_v21_apply, val_main_v18_apply, val_main_v15_apply, val_main_v17_apply, val_main_v16_apply,
    val_main_v20_apply, val_main_call0_v0_apply, val_main_call0_cst_apply]
  simp only [val_main_v14_apply, val_main_v19_apply]
  have e1 : ∀ k, lidx_main_v15 i k = ix2 (i 0) k := fun k => funext fun a => Fin.ext (by match a with | ⟨0, _⟩ => rfl | ⟨1, _⟩ => rfl)
  have e2 : ∀ k, idx_main_v14 (ridx_main_v15 i k) = ix2 (i 1) k := fun k => funext fun a => Fin.ext (by match a with | ⟨0, _⟩ => rfl | ⟨1, _⟩ => rfl)
  have e3 : idx_main_v16 (idx_main_v17 i) = ix1 (i 1) := funext fun a => Fin.ext (by match a with | ⟨0, _⟩ => rfl)
  have e4 : ∀ k, lidx_main_v20 i k = ix2 (i 0) k := fun k => funext fun a => Fin.ext (by match a with | ⟨0, _⟩ => rfl | ⟨1, _⟩ => rfl)
  have e5 : ∀ k, idx_main_v19 (ridx_main_v20 i k) = ix2 (i 1) k := fun k => funext fun a => Fin.ext (by match a with | ⟨0, _⟩ => rfl | ⟨1, _⟩ => rfl)
  simp only [e1, e2, e3, e4, e5]
  rfl

/-- The result: the unclamped linear stage of the hidden array and ITS neighbour sums (`val_main_v32`), with the
    second layer's weights and bias. -/
theorem out_eq (x0 : Vec Ideal S100000x64 .f32) (x1 : (⟨S2x1200000, .i32⟩ : BufTy).Contents (Elt Ideal)) (x2 : Vec Ideal S128x64 .f32)
    (x3 : Vec Ideal S128 .f32) (x4 : Vec Ideal S128x64 .f32) (x5 : Vec Ideal S128x128 .f32) (x6 : Vec Ideal S128 .f32)
    (x7 : Vec Ideal S128x128 .f32) :
    val_main_v40 (F := Ideal) x0 x1 x2 x3 x4 x5 x6 x7
      = layer (val_main_v22 (F := Ideal) x0 x1 x2 x3 x4) (val_main_v32 (F := Ideal) x0 x1 x2 x3 x4) x5 x7 x6 := by
  funext i
  rw [val_main_v40_apply, val_main_v37_apply, val_main_v34_apply, val_main_v36_apply, val_main_v35_apply, val_main_v39_apply]
  simp only [val_main_v33_apply, val_main_v38_apply]
  have e1 : ∀ k, lidx_main_v34 i k = ix2 (i 0) k := fun k => funext fun a => Fin.ext (by match a with | ⟨0, _⟩ => rfl | ⟨1, _⟩ => rfl)
  have e2 : ∀ k, idx_main_v33 (ridx_main_v34 i k) = ix2 (i 1) k := fun k => funext fun a => Fin.ext (by match a with | ⟨0, _⟩ => rfl | ⟨1, _⟩ => rfl)
  have e3 : idx_main_v35 (idx_main_v36 i) = ix1 (i 1) := funext fun a => Fin.ext (by match a with | ⟨0, _⟩ => rfl)
  have e4 : ∀ k, lidx_main_v39 i k = ix2 (i 0) k := fun k => funext fun a => Fin.ext (by match a with | ⟨0, _⟩ => rfl | ⟨1, _⟩ => rfl)
  have e5 : ∀ k, idx_main_v38 (ridx_main_v39 i k) = ix2 (i 1) k := fun k => funext fun a => Fin.ext (by match a with | ⟨0, _⟩ => rfl | ⟨1, _⟩ => rfl)
  simp only [e1, e2, e3, e4, e5]
  rfl

end Cert.ReferenceIdeal.Layers

end
-- ==== Proof.BodyAt.lean ====
/-
  One grid point of either linear stage, read entry by entry at the ideal instance.

  A stage's body holds a block of 5000 node rows `x` and the matching block `agg` of summed neighbour rows, the two
  weight matrices `wrel`, `wroot` (one row per output feature) and the bias row `b`. Its stored value at row `p`,
  feature `q` is  (∑ₖ agg[p,k]·wrel[q,k] + b[q]) + ∑ₖ x[p,k]·wroot[q,k],  clamped below at zero in the first stage.
  The narrowing of the operands to bf16 is the identity on extended reals, the matrix unit started from a zero
  accumulator is the plain sum over the contracted axis, and the transposes only rename the weights' coordinates.
-/
import proofs.«142811_j80075370266804_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyAt

open Cert.KernelIdeal Cert.KernelIdeal.Gen Idealize.ShloMosaic Idealize.ShloMosaic.TcCoe Idealize.ShloMosaic.ValueIdx

/-! ## The matrix unit from a zero accumulator, at an entry -/

/-- The left operand is read at the result's row … -/
theorem dot64_l0 (i : S5000x128.Idx) (q : dot_S5000x64_S64x128_S5000x128_1_0_0_1_n_n.contr.Idx) : (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
/-- … and at the contracted position; -/
theorem dot64_l1 (i : S5000x128.Idx) (q : dot_S5000x64_S64x128_S5000x128_1_0_0_1_n_n.contr.Idx) : (dot_S5000x64_S64x128_S5000x128_1_0_0_1_n_n.lhsIdx i q 1).val = (q ⟨0, by decide⟩).val :=
  dot_S5000x64_S64x128_S5000x128_1_0_0_1_n_n.lhsIdx_val_of_single rfl i q
/-- the right operand at the contracted position … -/
theorem dot64_r0 (i : S5000x128.Idx) (q : dot_S5000x64_S64x128_S5000x128_1_0_0_1_n_n.contr.Idx) : (dot_S5000x64_S64x128_S5000x128_1_0_0_1_n_n.rhsIdx i q 0).val = (q ⟨0, by decide⟩).val :=
  dot_S5000x64_S64x128_S5000x128_1_0_0_1_n_n.rhsIdx_val_of_single rfl i q
/-- … and at the result's column. -/
theorem dot64_r1 (i : S5000x128.Idx) (q : dot_S5000x64_S64x128_S5000x128_1_0_0_1_n_n.contr.Idx) : (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- A [5000,64]·[64,128] product started from zero: entry (p, q) is the sum over the 64 contracted positions. -/
theorem dot64_at (l : FVec Ideal S5000x64 .bf16) (r : FVec Ideal S64x128 .bf16) (p : Fin 5000) (q : Fin 128) :
    matmul dot_S5000x64_S64x128_S5000x128_1_0_0_1_n_n none l r (constant S5000x128 .f32 0x00000000#32) (ix2 p q)
      = ∑ k : Fin 64, l (ix2 p k) * r (ix2 k q) := by
  refine (Ideal.matmul_constant_zero_apply dot_S5000x64_S64x128_S5000x128_1_0_0_1_n_n none l r (ix2 p q)).trans ?_
  rw [← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k :=
    funext fun a => Fin.ext (by
      match a with
      | ⟨0, _⟩ => exact dot64_l0 _ _
      | ⟨1, _⟩ => exact (dot64_l1 _ _).trans hk)
  have er : dot_S5000x64_S64x128_S5000x128_1_0_0_1_n_n.rhsIdx (ix2 p q) ((contrEquiv1 dot_S5000x64_S64x128_S5000x128_1_0_0_1_n_n 64 rfl rfl).symm k) = ix2 k q :=
    funext fun a => Fin.ext (by
      match a with
      | ⟨0, _⟩ => exact (dot64_r0 _ _).trans hk
      | ⟨1, _⟩ => exact dot64_r1 _ _)
  rw [el, er]

/-- The left operand is read at the result's row … -/
theorem dot128_l0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the contracted position; -/
theorem dot128_l1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contracted position … -/
theorem dot128_r0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
/-- … and at the result's column. -/
theorem dot128_r1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128]·[128,128] product started from zero: entry (p, q) is the sum over the 128 contracted positions. -/
theorem dot128_at (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact dot128_l0 _ _
      | ⟨1, _⟩ => exact (dot128_l1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (dot128_r0 _ _).trans hk
      | ⟨1, _⟩ => exact dot128_r1 _ _)
  rw [el, er]

/-! ## The stored value of one point, at an entry -/

/-- First stage, row `p`, feature `q` of the block: the affine form clamped below at zero. `v0` is the block of node
    rows, `v2` the block of summed neighbour rows, `v5` / `v7` the neighbour / self weights, `v9` the bias row. -/
theorem pay0_at (v0 v2 : Vec Ideal S5000x64 .f32) (v5 v7 : Vec Ideal S128x64 .f32) (v9 : Vec Ideal S1x128 .f32)
    (p : Fin 5000) (q : Fin 128) :
    k0_pay1 (F := Ideal) v0 v2 v5 v7 v9 (ix2 p q)
      = max ((∑ k : Fin 64, v2 (ix2 p k) * v5 (ix2 q k) + v9 (ix2 (0 : Fin 1) q)) + ∑ k : Fin 64, v0 (ix2 p k) * v7 (ix2 q k))
          (Ideal.ofBits .f32 0x00000000#32) := by
  unfold k0_pay1
  simp only [shapeCast_self]
  refine congrArg₂ max (congrArg₂ (· + ·) (congrArg₂ (· + ·) ((dot64_at _ _ p q).trans ?_) ?_) ((dot64_at _ _ p q).trans ?_)) rfl
  · exact Finset.sum_congr rfl fun k _ => congrArg (v2 (ix2 p k) * ·) (transpose_ix2_apply _ _ k q)
  · exact broadcastTo_1b_ab_apply v9 _ p q
  · exact Finset.sum_congr rfl fun k _ => congrArg (v0 (ix2 p k) * ·) (transpose_ix2_apply _ _ k q)

/-- Second stage, row `p`, feature `q` of the block: the affine form, not clamped. `v0` is the block of hidden rows,
    `v3` the block of summed neighbour rows, `v6` / `v8` the neighbour / self weights, `v10` the bias row. -/
theorem pay1_at (v0 v3 : Vec Ideal S5000x128 .f32) (v6 v8 : Vec Ideal S128x128 .f32) (v10 : Vec Ideal S1x128 .f32)
    (p : Fin 5000) (q : Fin 128) :
    k1_pay1 (F := Ideal) v0 v3 v6 v8 v10 (ix2 p q)
      = (∑ k : Fin 128, v3 (ix2 p k) * v6 (ix2 q k) + v10 (ix2 (0 : Fin 1) q)) + ∑ k : Fin 128, v0 (ix2 p k) * v8 (ix2 q k) := by
  unfold k1_pay1
  simp only [shapeCast_self]
  refine congrArg₂ (· + ·) (congrArg₂ (· + ·) ((dot128_at _ _ p q).trans ?_) ?_) ((dot128_at _ _ p q).trans ?_)
  · exact Finset.sum_congr rfl fun k _ => congrArg (v3 (ix2 p k) * ·) (transpose_ix2_apply _ _ k q)
  · exact broadcastTo_1b_ab_apply v10 _ p q
  · exact Finset.sum_congr rfl fun k _ => congrArg (v0 (ix2 p k) * ·) (transpose_ix2_apply _ _ k q)

end Cert.KernelIdeal.BodyAt

end
-- ==== Proof.KernelRegions.lean ====
/-
  What each of the two launches leaves in its output array, for ANY contents `V` of the buffers at its entry.

  A launch walks 20 grid points; point `t` sees rows 5000·t … 5000·t+4999 of the node array and of the neighbour-sum
  array, the whole weight matrices and the bias row, and writes rows 5000·t … 5000·t+4999 of the output. Since the stored
  block is the linear stage of LayerSpec on those rows, and the 20 blocks tile the 100000 rows, the output array ends
  as the linear stage of the whole arrays.
-/
import proofs.«142811_j80075370266804_1_alg».proof.Proof.Gen.KernelIdeal.Frame
import proofs.«142811_j80075370266804_1_alg».proof.Proof.BodyAt
import proofs.«142811_j80075370266804_1_alg».proof.Proof.LayerSpec

noncomputable section

namespace Cert.KernelIdeal.Regions

open Cert.KernelIdeal Cert.KernelIdeal.Gen Cert.KernelIdeal.BodyAt Idealize.ShloMosaic Idealize.ShloMosaic.TcCoe Idealize.ShloMosaic.ValueIdx
open Idealize.SL.Sem
open Idealize.ShloMosaic.Pipeline (Dat)
open Cert.GraphConv

variable (V : (c : Dev nD) → (b : Ref sig .tc) → Buf (Elt Ideal) ((c : Thread nD τ).loc b))

/-- The zero offset of a whole-block access. -/
theorem hz : (![0, 0] : Fin 2 → Nat) = fun _ => 0 := funext fun a => by fin_cases a <;> rfl

/-! ## Launch 0 -/

/-- The block index of every window at every one of the 20 points: the row-blocked windows sit at block `t`, the
    weights and the bias at block 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` is a row of the array. -/
theorem rowLt0 (t : Fin cfg0.N) (p : Fin 5000) : 5000 * t.val + p.val < 100000 := by
  have ht : t.val < 20 := t.isLt
  have hp := p.isLt
  omega

/-- The node-row window at point `t`: entry (p, k) of its block is entry (5000·t + p, k) of its array. -/
theorem rd0_0 (c : Dev nD) (t : Fin cfg0.N) (p : Fin 5000) (k : Fin 64) :
    iblk0 V c 0 t (ix2 p k) = V c main_arg0 (ix2 ⟨5000 * t.val + p.val, rowLt0 t p⟩ k) := by
  show V c main_arg0 (((cfg0.win 0).blk t).view.emb (ix2 p k)) = _
  refine congrArg _ (funext fun a => Fin.ext ?_)
  have e := idx0 t
  match a with
  | ⟨0, _⟩ => show win0_0.index t (0 : Fin 2) * 5000 + 1 * p.val = 5000 * t.val + p.val; omega
  | ⟨1, _⟩ => show win0_0.index t (1 : Fin 2) * 64 + 1 * k.val = k.val; omega

/-- The neighbour-sum window at point `t`, likewise. -/
theorem rd0_1 (c : Dev nD) (t : Fin cfg0.N) (p : Fin 5000) (k : Fin 64) :
    iblk0 V c 1 t (ix2 p k) = V c main_v13 (ix2 ⟨5000 * t.val + p.val, rowLt0 t p⟩ k) := by
  show V c main_v13 (((cfg0.win 1).blk t).view.emb (ix2 p k)) = _
  refine congrArg _ (funext fun a => Fin.ext ?_)
  have e := idx0 t
  match a with
  | ⟨0, _⟩ => show win0_1.index t (0 : Fin 2) * 5000 + 1 * p.val = 5000 * t.val + p.val; omega
  | ⟨1, _⟩ => show win0_1.index t (1 : Fin 2) * 64 + 1 * k.val = k.val; omega

/-- The neighbour weights are seen whole at every point. -/
theorem rd0_2 (c : Dev nD) (t : Fin cfg0.N) (a0 : Fin 128) (a1 : Fin 64) :
    iblk0 V c 2 t (ix2 a0 a1) = V c main_arg2 (ix2 a0 a1) := by
  show V c main_arg2 (((cfg0.win 2).blk t).view.emb (ix2 a0 a1)) = _
  refine congrArg _ (funext fun a => Fin.ext ?_)
  have e := idx0 t
  match a with
  | ⟨0, _⟩ => show win0_2.index t (0 : Fin 2) * 128 + 1 * a0.val = a0.val; omega
  | ⟨1, _⟩ => show win0_2.index t (1 : Fin 2) * 64 + 1 * a1.val = a1.val; omega

/-- The bias row is seen whole at every point. -/
theorem rd0_3 (c : Dev nD) (t : Fin cfg0.N) (a0 : Fin 1) (a1 : Fin 128) :
    iblk0 V c 3 t (ix2 a0 a1) = V c main_v14 (ix2 a0 a1) := by
  show V c main_v14 (((cfg0.win 3).blk t).view.emb (ix2 a0 a1)) = _
  refine congrArg _ (funext fun a => Fin.ext ?_)
  have e := idx0 t
  match a with
  | ⟨0, _⟩ => show win0_3.index t (0 : Fin 2) * 1 + 1 * a0.val = a0.val; omega
  | ⟨1, _⟩ => show win0_3.index t (1 : Fin 2) * 128 + 1 * a1.val = a1.val; omega

/-- The self weights are seen whole at every point. -/
theorem rd0_4 (c : Dev nD) (t : Fin cfg0.N) (a0 : Fin 128) (a1 : Fin 64) :
    iblk0 V c 4 t (ix2 a0 a1) = V c main_arg4 (ix2 a0 a1) := by
  show V c main_arg4 (((cfg0.win 4).blk t).view.emb (ix2 a0 a1)) = _
  refine congrArg _ (funext fun a => Fin.ext ?_)
  have e := idx0 t
  match a with
  | ⟨0, _⟩ => show win0_4.index t (0 : Fin 2) * 128 + 1 * a0.val = a0.val; omega
  | ⟨1, _⟩ => show win0_4.index t (1 : Fin 2) * 64 + 1 * a1.val = a1.val; omega

/-- Where entry (p, q) of point `t`'s output block sits in the output array: row 5000·t + p, column q. -/
theorem emb0_5 (t : Fin cfg0.N) (p : Fin 5000) (q : Fin 128) :
    ((cfg0.win 5).blk t).view.emb (ix2 p q) = ix2 ⟨5000 * t.val + p.val, rowLt0 t p⟩ q := by
  refine funext fun a => Fin.ext ?_
  have e := idx0 t
  match a with
  | ⟨0, _⟩ => show win0_5.index t (0 : Fin 2) * 5000 + 1 * p.val = 5000 * t.val + p.val; omega
  | ⟨1, _⟩ => show win0_5.index t (1 : Fin 2) * 128 + 1 * q.val = q.val; omega

/-- The array the launch fills: the linear stage of the arrays it finds at its entry (the bias row read through its
    one row). -/
abbrev filled0 (c : Dev nD) : S100000x128.Idx → EReal :=
  layerRelu (V c main_arg0) (V c main_v13) (V c main_arg2) (V c main_arg4) (fun j => V c main_v14 (ix2 (0 : Fin 1) (j 0)))

/-- What point `t` writes back is block `t` of that array. -/
theorem flushed0 (c : Dev nD) (t : Fin cfg0.N) :
    (dat0 V c).flushed 5 t = ((cfg0.win 5).blk t).view.read (Elt Ideal) (filled0 V c) := by
  show (cfg0.win 5).cut (grid0.coords t) ((dat0 V c).after 5 t) = _
  rw [after0_5]
  unfold out0_5
  rw [View.canon_unit_zero hz]
  simp only [View.ld_unit_zero (S := S5000x64) hz, View.ld_unit_zero (S := S128x64) hz, View.ld_unit_zero (S := S1x128) hz]
  refine funext fun (j : S5000x128.Idx) => ?_
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 4 t) (iblk0 V c 3 t) (ix2 p q)
    = filled0 V c (((cfg0.win 5).blk t).view.emb (ix2 p q))
  rw [emb0_5]
  refine (pay0_at _ _ _ _ _ p q).trans ?_
  simp only [rd0_0, rd0_1, rd0_2, rd0_3, rd0_4]
  rfl

/-- An index of the output array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v15).slice (win0_5.rect t)).set ↔ _
  rw [View.set_slice_whole, Rect.mem_set_unit]
  exact Iff.rfl

/-- The 20 blocks tile the 100000 rows: row `r` is in the block of point `r / 5000`. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have ht : (i 0).val / 5000 < 20 := by omega
  refine ⟨⟨(i 0).val / 5000, ht⟩, flush0_5 _, ?_⟩
  rw [mem_blk0]
  have e := idx0 ⟨(i 0).val / 5000, ht⟩
  have e0 : win0_5.index ⟨(i 0).val / 5000, ht⟩ (0 : Fin 2) = (i 0).val / 5000 := e.2.2.2.2.2.2.2.2.2.2.1
  have e1 : win0_5.index ⟨(i 0).val / 5000, ht⟩ (1 : Fin 2) = 0 := e.2.2.2.2.2.2.2.2.2.2.2
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e0]; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e1]; omega

/-- THE OUTPUT ARRAY after the launch: the linear stage of the arrays found at its entry. -/
theorem final0 (c : Dev nD) : (dat0 V c).arrAt 5 cfg0.N = filled0 V c :=
  (dat0 V c).arrAt_eq_of_cover 5 (filled0 V c) (fun t _ => flushed0 V c t) cover0

/-! ## Launch 1 -/

/-- The block index of every window at every one of the 20 points: the row-blocked windows sit at block `t`, the
    weights and the bias at block 0. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of block `t` is a row of the array. -/
theorem rowLt1 (t : Fin cfg1.N) (p : Fin 5000) : 5000 * t.val + p.val < 100000 := by
  have ht : t.val < 20 := t.isLt
  have hp := p.isLt
  omega

/-- The node-row window at point `t`: entry (p, k) of its block is entry (5000·t + p, k) of its array. -/
theorem rd1_0 (c : Dev nD) (t : Fin cfg1.N) (p : Fin 5000) (k : Fin 128) :
    iblk1 V c 0 t (ix2 p k) = V c main_v15 (ix2 ⟨5000 * t.val + p.val, rowLt1 t p⟩ k) := by
  show V c main_v15 (((cfg1.win 0).blk t).view.emb (ix2 p k)) = _
  refine congrArg _ (funext fun a => Fin.ext ?_)
  have e := idx1 t
  match a with
  | ⟨0, _⟩ => show win1_0.index t (0 : Fin 2) * 5000 + 1 * p.val = 5000 * t.val + p.val; omega
  | ⟨1, _⟩ => show win1_0.index t (1 : Fin 2) * 128 + 1 * k.val = k.val; omega

/-- The neighbour-sum window at point `t`, likewise. -/
theorem rd1_1 (c : Dev nD) (t : Fin cfg1.N) (p : Fin 5000) (k : Fin 128) :
    iblk1 V c 1 t (ix2 p k) = V c main_v25 (ix2 ⟨5000 * t.val + p.val, rowLt1 t p⟩ k) := by
  show V c main_v25 (((cfg1.win 1).blk t).view.emb (ix2 p k)) = _
  refine congrArg _ (funext fun a => Fin.ext ?_)
  have e := idx1 t
  match a with
  | ⟨0, _⟩ => show win1_1.index t (0 : Fin 2) * 5000 + 1 * p.val = 5000 * t.val + p.val; omega
  | ⟨1, _⟩ => show win1_1.index t (1 : Fin 2) * 128 + 1 * k.val = k.val; omega

/-- The neighbour weights are seen whole at every point. -/
theorem rd1_2 (c : Dev nD) (t : Fin cfg1.N) (a0 : Fin 128) (a1 : Fin 128) :
    iblk1 V c 2 t (ix2 a0 a1) = V c main_arg5 (ix2 a0 a1) := by
  show V c main_arg5 (((cfg1.win 2).blk t).view.emb (ix2 a0 a1)) = _
  refine congrArg _ (funext fun a => Fin.ext ?_)
  have e := idx1 t
  match a with
  | ⟨0, _⟩ => show win1_2.index t (0 : Fin 2) * 128 + 1 * a0.val = a0.val; omega
  | ⟨1, _⟩ => show win1_2.index t (1 : Fin 2) * 128 + 1 * a1.val = a1.val; omega

/-- The bias row is seen whole at every point. -/
theorem rd1_3 (c : Dev nD) (t : Fin cfg1.N) (a0 : Fin 1) (a1 : Fin 128) :
    iblk1 V c 3 t (ix2 a0 a1) = V c main_v26 (ix2 a0 a1) := by
  show V c main_v26 (((cfg1.win 3).blk t).view.emb (ix2 a0 a1)) = _
  refine congrArg _ (funext fun a => Fin.ext ?_)
  have e := idx1 t
  match a with
  | ⟨0, _⟩ => show win1_3.index t (0 : Fin 2) * 1 + 1 * a0.val = a0.val; omega
  | ⟨1, _⟩ => show win1_3.index t (1 : Fin 2) * 128 + 1 * a1.val = a1.val; omega

/-- The self weights are seen whole at every point. -/
theorem rd1_4 (c : Dev nD) (t : Fin cfg1.N) (a0 : Fin 128) (a1 : Fin 128) :
    iblk1 V c 4 t (ix2 a0 a1) = V c main_arg7 (ix2 a0 a1) := by
  show V c main_arg7 (((cfg1.win 4).blk t).view.emb (ix2 a0 a1)) = _
  refine congrArg _ (funext fun a => Fin.ext ?_)
  have e := idx1 t
  match a with
  | ⟨0, _⟩ => show win1_4.index t (0 : Fin 2) * 128 + 1 * a0.val = a0.val; omega
  | ⟨1, _⟩ => show win1_4.index t (1 : Fin 2) * 128 + 1 * a1.val = a1.val; omega

/-- Where entry (p, q) of point `t`'s output block sits in the output array: row 5000·t + p, column q. -/
theorem emb1_5 (t : Fin cfg1.N) (p : Fin 5000) (q : Fin 128) :
    ((cfg1.win 5).blk t).view.emb (ix2 p q) = ix2 ⟨5000 * t.val + p.val, rowLt1 t p⟩ q := by
  refine funext fun a => Fin.ext ?_
  have e := idx1 t
  match a with
  | ⟨0, _⟩ => show win1_5.index t (0 : Fin 2) * 5000 + 1 * p.val = 5000 * t.val + p.val; omega
  | ⟨1, _⟩ => show win1_5.index t (1 : Fin 2) * 128 + 1 * q.val = q.val; omega

/-- The array the launch fills: the linear stage of the arrays it finds at its entry (the bias row read through its
    one row). -/
abbrev filled1 (c : Dev nD) : S100000x128.Idx → EReal :=
  layer (V c main_v15) (V c main_v25) (V c main_arg5) (V c main_arg7) (fun j => V c main_v26 (ix2 (0 : Fin 1) (j 0)))

/-- What point `t` writes back is block `t` of that array. -/
theorem flushed1 (c : Dev nD) (t : Fin cfg1.N) :
    (dat1 V c).flushed 5 t = ((cfg1.win 5).blk t).view.read (Elt Ideal) (filled1 V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  refine funext fun (j : S5000x128.Idx) => ?_
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 4 t) (iblk1 V c 3 t) (ix2 p q)
    = filled1 V c (((cfg1.win 5).blk t).view.emb (ix2 p q))
  rw [emb1_5]
  refine (pay1_at _ _ _ _ _ p q).trans ?_
  simp only [rd1_0, rd1_1, rd1_2, rd1_3, rd1_4]
  rfl

/-- An index of the output array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v27).slice (win1_5.rect t)).set ↔ _
  rw [View.set_slice_whole, Rect.mem_set_unit]
  exact Iff.rfl

/-- The 20 blocks tile the 100000 rows: row `r` is in the block of point `r / 5000`. -/
theorem cover1 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have ht : (i 0).val / 5000 < 20 := by omega
  refine ⟨⟨(i 0).val / 5000, ht⟩, flush1_5 _, ?_⟩
  rw [mem_blk1]
  have e := idx1 ⟨(i 0).val / 5000, ht⟩
  have e0 : win1_5.index ⟨(i 0).val / 5000, ht⟩ (0 : Fin 2) = (i 0).val / 5000 := e.2.2.2.2.2.2.2.2.2.2.1
  have e1 : win1_5.index ⟨(i 0).val / 5000, ht⟩ (1 : Fin 2) = 0 := e.2.2.2.2.2.2.2.2.2.2.2
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0]; omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e1]; omega

/-- THE OUTPUT ARRAY after the launch: the linear stage of the arrays found at its entry. -/
theorem final1 (c : Dev nD) : (dat1 V c).arrAt 5 cfg1.N = filled1 V c :=
  (dat1 V c).arrAt_eq_of_cover 5 (filled1 V c) (fun t _ => flushed1 V c t) cover1

end Cert.KernelIdeal.Regions

end
-- ==== Proof.KernelValue.lean ====
/-
  The kernel program's result as a function of its arguments.

  The contents of the buffers at each segment boundary are read back through the host operations and the two
  launches: the first host stretch forms the width-64 neighbour sums, the first launch leaves the hidden array, the
  second host stretch forms the width-128 neighbour sums of the hidden array, and the second launch leaves the result.
-/
import proofs.«142811_j80075370266804_1_alg».proof.Proof.Gen.KernelIdeal.Frame
import proofs.«142811_j80075370266804_1_alg».proof.Proof.KernelRegions
import Idealize.ShloMosaic.Lib.StableHlo.Run
import Idealize.ShloMosaic.Lib.ValueLayout

set_option maxRecDepth 16384

noncomputable section

namespace Cert.KernelIdeal.ResultValue

open Cert.KernelIdeal Cert.KernelIdeal.Gen Cert.KernelIdeal.Regions Idealize.ShloMosaic Idealize.ShloMosaic.TcCoe Idealize.ShloMosaic.ValueIdx
open Idealize.SL.Sem Idealize.ShloMosaic.StableHlo
open Cert.GraphConv

variable (m : (ℓ : Loc nD τ sig) → Buf (Elt Ideal) ℓ) (ρ : Dev nD → PrngReg)

/-! ## The neighbour sums, as the host forms them -/

/-- The edge list's first row: the node each edge comes from. -/
def srcOf (ei : (⟨S2x1200000, .i32⟩ : BufTy).Contents (Elt Ideal)) : (⟨S1200000, .i32⟩ : BufTy).Contents (Elt Ideal) :=
  shapeCast S1200000 (extractStridedSlice S1x1200000 ![0, 0] ei slices_S2x1200000_S1x1200000_0_0) shapeCasts_S1x1200000_S1200000

/-- The edge list's second row: the node each edge goes to. -/
def dstOf (ei : (⟨S2x1200000, .i32⟩ : BufTy).Contents (Elt Ideal)) : (⟨S1200000, .i32⟩ : BufTy).Contents (Elt Ideal) :=
  shapeCast S1200000 (extractStridedSlice S1x1200000 ![1, 0] ei slices_S2x1200000_S1x1200000_1_0) shapeCasts_S1x1200000_S1200000

/-- The source indices as the gather takes them: a negative index counted from the end, one index per edge. -/
def gatherIdx (s : (⟨S1200000, .i32⟩ : BufTy).Contents (Elt Ideal)) : (⟨S1200000x1, .i32⟩ : BufTy).Contents (Elt Ideal) :=
  broadcastInDim S1200000x1 ![0] bcast_S1200000_S1200000x1_0
    (select (cmpi .slt s (broadcastInDim S1200000 ![] bcast_S_S1200000 (constantI S_ 32 0#32)))
      (addi s (broadcastInDim S1200000 ![] bcast_S_S1200000 (constantI S_ 32 100000#32))) s)

/-- Width-64 neighbour sums: each edge's source row of `x`, added into its destination row of a zero array. -/
def nbr64 (x : Vec Ideal S100000x64 .f32) (s d : (⟨S1200000, .i32⟩ : BufTy).Contents (Elt Ideal)) : Vec Ideal S100000x64 .f32 :=
  Host.scatterAdd scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 d)
    (Host.gather gather_S100000x64_S1200000x1_S1200000x64_1_0_n_n_0_1_164 x (gatherIdx s))

/-- Width-128 neighbour sums, of the hidden array. -/
def nbr128 (h : Vec Ideal S100000x128 .f32) (s d : (⟨S1200000, .i32⟩ : BufTy).Contents (Elt Ideal)) : Vec Ideal S100000x128 .f32 :=
  Host.scatterAdd scatter_S100000x128_S1200000x1_S1200000x128_1_0_0_1
    (broadcastInDim S100000x128 ![] bcast_S_S100000x128 (constant (F := Ideal) S_ .f32 0x00000000#32))
    (broadcastInDim S1200000x1 ![0] bcast_S1200000_S1200000x1_0 d)
    (Host.gather gather_S100000x128_S1200000x1_S1200000x128_1_0_n_n_0_1_1128 h (gatherIdx s))

/-! ## The buffers at the first launch's entry -/

/-- The first host stretch leaves the arguments the launch reads as they were. -/
theorem V1_arg (c : Dev nD) :
    V1 m ρ c main_arg0 = (m ((c : Thread nD τ).loc main_arg0)) ∧ V1 m ρ c main_arg2 = (m ((c : Thread nD τ).loc main_arg2)) ∧ V1 m ρ c main_arg4 = (m ((c : Thread nD τ).loc main_arg4)) := by
  refine ⟨?_, ?_, ?_⟩
  · show StableHlo.after hostOps0 (W0 m ρ c) (Proc.devRef .tc main_arg0) = _
    after_results
  · show StableHlo.after hostOps0 (W0 m ρ c) (Proc.devRef .tc main_arg2) = _
    after_results
  · show StableHlo.after hostOps0 (W0 m ρ c) (Proc.devRef .tc main_arg4) = _
    after_results

/-- It splits the edge list into its two rows. -/
theorem V1_edges (c : Dev nD) :
    W1 m ρ c (Proc.devRef .tc main_v1) = srcOf (m ((c : Thread nD τ).loc main_arg1)) ∧ W1 m ρ c (Proc.devRef .tc main_v3) = dstOf (m ((c : Thread nD τ).loc main_arg1)) := by
  refine ⟨?_, ?_⟩
  · show StableHlo.after hostOps0 (W0 m ρ c) (Proc.devRef .tc main_v1) = _
    after_results; rfl
  · show StableHlo.after hostOps0 (W0 m ρ c) (Proc.devRef .tc main_v3) = _
    after_results; rfl

/-- It forms the width-64 neighbour sums of the node features. -/
theorem V1_nbr (c : Dev nD) :
    V1 m ρ c main_v13 = nbr64 (m ((c : Thread nD τ).loc main_arg0)) (srcOf (m ((c : Thread nD τ).loc main_arg1))) (dstOf (m ((c : Thread nD τ).loc main_arg1))) := by
  show StableHlo.after hostOps0 (W0 m ρ c) (Proc.devRef .tc main_v13) = _
  after_results; rfl

/-- It recasts the first bias as one row; read through that row it is the bias. -/
theorem V1_bias (c : Dev nD) : (fun j : S128.Idx => V1 m ρ c main_v14 (ix2 (0 : Fin 1) (j 0))) = (m ((c : Thread nD τ).loc main_arg3)) := by
  have h : V1 m ρ c main_v14 = shapeCast S1x128 (m ((c : Thread nD τ).loc main_arg3)) shapeCasts_S128_S1x128 := by
    show StableHlo.after hostOps0 (W0 m ρ c) (Proc.devRef .tc main_v14) = _
    after_results; rfl
  funext j
  rw [h, eq_ix1 j]
  exact shapeCast_a_1a_apply _ _ _ _

/-! ## The hidden array, and the buffers at the second launch's entry -/

/-- The hidden array as a function of the arguments: the clamped linear stage of the node features and their
    neighbour sums. -/
def hidden (x : Vec Ideal S100000x64 .f32) (ei : (⟨S2x1200000, .i32⟩ : BufTy).Contents (Elt Ideal)) (w1rel : Vec Ideal S128x64 .f32)
    (b1 : Vec Ideal S128 .f32) (w1root : Vec Ideal S128x64 .f32) : Vec Ideal S100000x128 .f32 :=
  layerRelu x (nbr64 x (srcOf ei) (dstOf ei)) w1rel w1root b1

/-- The result as a function of the arguments: the linear stage of the hidden array and ITS neighbour sums. -/
def result (x : Vec Ideal S100000x64 .f32) (ei : (⟨S2x1200000, .i32⟩ : BufTy).Contents (Elt Ideal)) (w1rel : Vec Ideal S128x64 .f32)
    (b1 : Vec Ideal S128 .f32) (w1root : Vec Ideal S128x64 .f32) (w2rel : Vec Ideal S128x128 .f32) (b2 : Vec Ideal S128 .f32)
    (w2root : Vec Ideal S128x128 .f32) : Vec Ideal S100000x128 .f32 :=
  layer (hidden x ei w1rel b1 w1root) (nbr128 (hidden x ei w1rel b1 w1root) (srcOf ei) (dstOf ei)) w2rel w2root b2

/-- The first launch leaves the hidden array in its output buffer. -/
theorem W2_hidden (c : Dev nD) :
    W2 m ρ c (Proc.devRef .tc main_v15) = hidden (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((final0 (V1 m ρ) c).trans ?_)
  unfold filled0 hidden
  rw [(V1_arg m ρ c).1, (V1_arg m ρ c).2.1, (V1_arg m ρ c).2.2, V1_nbr m ρ c, V1_bias m ρ c]

/-- Buffers the first launch does not touch keep what the first host stretch left. -/
theorem W2_kept (c : Dev nD) :
    W2 m ρ c (Proc.devRef .tc main_v1) = srcOf (m ((c : Thread nD τ).loc main_arg1)) ∧ W2 m ρ c (Proc.devRef .tc main_v3) = dstOf (m ((c : Thread nD τ).loc main_arg1))
    ∧ W2 m ρ c (Proc.devRef .tc main_arg5) = (m ((c : Thread nD τ).loc main_arg5)) ∧ W2 m ρ c (Proc.devRef .tc main_arg6) = (m ((c : Thread nD τ).loc main_arg6))
    ∧ W2 m ρ c (Proc.devRef .tc main_arg7) = (m ((c : Thread nD τ).loc main_arg7)) := by
  refine ⟨(W2_of_ne m ρ c main_v1 (by decide)).trans (V1_edges m ρ c).1, (W2_of_ne m ρ c main_v3 (by decide)).trans (V1_edges m ρ c).2,
    (W2_of_ne m ρ c main_arg5 (by decide)).trans ?_, (W2_of_ne m ρ c main_arg6 (by decide)).trans ?_, (W2_of_ne m ρ c main_arg7 (by decide)).trans ?_⟩
  · show StableHlo.after hostOps0 (W0 m ρ c) (Proc.devRef .tc main_arg5) = _
    after_results
  · show StableHlo.after hostOps0 (W0 m ρ c) (Proc.devRef .tc main_arg6) = _
    after_results
  · show StableHlo.after hostOps0 (W0 m ρ c) (Proc.devRef .tc main_arg7) = _
    after_results

/-- The second host stretch leaves the hidden array and the second layer's weights as they were. -/
theorem V3_arg (c : Dev nD) :
    V3 m ρ c main_v15 = W2 m ρ c (Proc.devRef .tc main_v15) ∧ V3 m ρ c main_arg5 = W2 m ρ c (Proc.devRef .tc main_arg5)
    ∧ V3 m ρ c main_arg7 = W2 m ρ c (Proc.devRef .tc main_arg7) := by
  refine ⟨?_, ?_, ?_⟩
  · show StableHlo.after hostOps1 (W2 m ρ c) (Proc.devRef .tc main_v15) = _
    after_results
  · show StableHlo.after hostOps1 (W2 m ρ c) (Proc.devRef .tc main_arg5) = _
    after_results
  · show StableHlo.after hostOps1 (W2 m ρ c) (Proc.devRef .tc main_arg7) = _
    after_results

/-- It forms the width-128 neighbour sums of the hidden array, along the same edges. -/
theorem V3_nbr (c : Dev nD) :
    V3 m ρ c main_v25 = nbr128 (W2 m ρ c (Proc.devRef .tc main_v15)) (W2 m ρ c (Proc.devRef .tc main_v1)) (W2 m ρ c (Proc.devRef .tc main_v3)) := by
  show StableHlo.after hostOps1 (W2 m ρ c) (Proc.devRef .tc main_v25) = _
  after_results; rfl

/-- It recasts the second bias as one row; read through that row it is the bias. -/
theorem V3_bias (c : Dev nD) : (fun j : S128.Idx => V3 m ρ c main_v26 (ix2 (0 : Fin 1) (j 0))) = W2 m ρ c (Proc.devRef .tc main_arg6) := by
  have h : V3 m ρ c main_v26 = shapeCast S1x128 (W2 m ρ c (Proc.devRef .tc main_arg6)) shapeCasts_S128_S1x128 := by
    show StableHlo.after hostOps1 (W2 m ρ c) (Proc.devRef .tc main_v26) = _
    after_results; rfl
  funext j
  rw [h, eq_ix1 j]
  exact shapeCast_a_1a_apply _ _ _ _

/-! ## The result -/

/-- The second launch leaves `result` of the arguments in the result buffer. -/
theorem W4_result (c : Dev nD) :
    W4 m ρ c (Proc.devRef .tc main_v27)
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ((final1 (V3 m ρ) c).trans ?_)
  unfold filled1 result
  rw [(V3_arg m ρ c).1, (V3_arg m ρ c).2.1, (V3_arg m ρ c).2.2, V3_nbr m ρ c, V3_bias m ρ c, W2_hidden m ρ c,
    (W2_kept m ρ c).1, (W2_kept m ρ c).2.1, (W2_kept m ρ c).2.2.1, (W2_kept m ρ c).2.2.2.1, (W2_kept m ρ c).2.2.2.2]

end Cert.KernelIdeal.ResultValue

end
-- ==== Proof.Bridge.lean ====
/-
  The two idealized programs compute one function of the arguments.

  Both form the width-64 neighbour sums of the node features by the same gather and scatter-add, apply the clamped
  linear stage, form the width-128 neighbour sums of the hidden array by the same gather and scatter-add, and apply
  the linear stage again. The kernel program does each linear stage block by block in a launch, the reference as two
  matrix products over all nodes; entry by entry both are the same sums, taken in the same order of additions, so no
  law of the extended reals beyond reading the sums is needed.
-/
import proofs.«142811_j80075370266804_1_alg».proof.Proof.RefLayers
import proofs.«142811_j80075370266804_1_alg».proof.Proof.KernelValue

noncomputable section

namespace Cert.Bridge

open Idealize.ShloMosaic Idealize.ShloMosaic.TcCoe
open Cert.ReferenceIdeal Cert.ReferenceIdeal.Read Cert.ReferenceIdeal.Layers

/-- The reference's width-64 neighbour sums are the kernel program's. -/
theorem nbr64_eq (x0 : Vec Ideal S100000x64 .f32) (x1 : (⟨S2x1200000, .i32⟩ : BufTy).Contents (Elt Ideal)) :
    val_main_v13 (F := Ideal) x0 x1
      = Cert.KernelIdeal.ResultValue.nbr64 x0 (Cert.KernelIdeal.ResultValue.srcOf x1) (Cert.KernelIdeal.ResultValue.dstOf x1) := rfl

/-- The reference's width-128 neighbour sums are the kernel program's, of the same hidden array. -/
theorem nbr128_eq (x0 : Vec Ideal S100000x64 .f32) (x1 : (⟨S2x1200000, .i32⟩ : BufTy).Contents (Elt Ideal)) (x2 : Vec Ideal S128x64 .f32)
    (x3 : Vec Ideal S128 .f32) (x4 : Vec Ideal S128x64 .f32) :
    val_main_v32 (F := Ideal) x0 x1 x2 x3 x4
      = Cert.KernelIdeal.ResultValue.nbr128 (val_main_v22 (F := Ideal) x0 x1 x2 x3 x4)
          (Cert.KernelIdeal.ResultValue.srcOf x1) (Cert.KernelIdeal.ResultValue.dstOf x1) := rfl

/-- The reference's result is the kernel program's result function of the same arguments. -/
theorem result_eq (x0 : Vec Ideal S100000x64 .f32) (x1 : (⟨S2x1200000, .i32⟩ : BufTy).Contents (Elt Ideal)) (x2 : Vec Ideal S128x64 .f32)
    (x3 : Vec Ideal S128 .f32) (x4 : Vec Ideal S128x64 .f32) (x5 : Vec Ideal S128x128 .f32) (x6 : Vec Ideal S128 .f32)
    (x7 : Vec Ideal S128x128 .f32) :
    val_main_v40 (F := Ideal) x0 x1 x2 x3 x4 x5 x6 x7 = Cert.KernelIdeal.ResultValue.result x0 x1 x2 x3 x4 x5 x6 x7 := by
  rw [out_eq, nbr128_eq, hidden_eq, nbr64_eq]
  rfl

end Cert.Bridge

end
-- ==== Proof.lean ====
/-
  The certificate of a two-layer graph convolution: a kernel program that does each layer's linear stage in a launch
  over blocks of 5000 nodes, against a reference that does it as matrix products over all 100000 nodes.

  Frames: both kernel programs' frames are the generated ones; the reference has no launch, and its frame is its
  generated run with the result dropped.
  Preservation: the idealization rewrote nothing, so the conjunct is trivial.
  Equality of results at the ideal instance: the kernel program's run names its result buffer's final contents
  (KernelRun), those contents are one function `result` of the eight arguments (KernelValue, over KernelRegions and
  BodyAt), the reference's generated run ends at its composed term, and that term is the same function of the same
  arguments (RefLayers, Bridge). The precondition is never opened: every sum is read in the order both programs take it.
-/
import proofs.«142811_j80075370266804_1_alg».proof.Defs
import proofs.«142811_j80075370266804_1_alg».proof.Proof.Gen.Kernel
import proofs.«142811_j80075370266804_1_alg».proof.Proof.Gen.Kernel.Skeleton
import proofs.«142811_j80075370266804_1_alg».proof.Proof.Gen.Kernel.Launch
import proofs.«142811_j80075370266804_1_alg».proof.Proof.Gen.Kernel.Points
import proofs.«142811_j80075370266804_1_alg».proof.Proof.Gen.Kernel.Frame
import proofs.«142811_j80075370266804_1_alg».proof.Proof.Gen.KernelIdeal
import proofs.«142811_j80075370266804_1_alg».proof.Proof.Gen.KernelIdeal.Skeleton
import proofs.«142811_j80075370266804_1_alg».proof.Proof.Gen.KernelIdeal.Launch
import proofs.«142811_j80075370266804_1_alg».proof.Proof.Gen.KernelIdeal.Points
import proofs.«142811_j80075370266804_1_alg».proof.Proof.Gen.KernelIdeal.Frame
import proofs.«142811_j80075370266804_1_alg».proof.Proof.Gen.ReferenceIdeal
import proofs.«142811_j80075370266804_1_alg».proof.Proof.Gen.Pre_finite_inputs
import proofs.«142811_j80075370266804_1_alg».proof.Proof.Gen.ReferenceIdeal.Read
import proofs.«142811_j80075370266804_1_alg».proof.Proof.KernelRun
import proofs.«142811_j80075370266804_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs and keeps its arguments: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the eight arguments both programs end with the same result array: `result` of the
    arguments. -/
theorem algebraic : Cert.algebraic_KernelIdeal_ReferenceIdeal := by
  intro m ρ m' ρ' _ hagree
  refine ⟨fun c => Cert.KernelIdeal.ResultValue.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.ResultValue.W4_result m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v40_eq, a0, a1, a2, a3, a4, a5, a6, a7]
    exact Cert.Bridge.result_eq _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
